-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S1x128x1024 : Shape := ⟨3, ![1, 128, 1024]⟩
abbrev S1x2048x1024 : Shape := ⟨3, ![1, 2048, 1024]⟩
abbrev S2048x1024 : Shape := ⟨2, ![2048, 1024]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S8x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x2048x1024, .f32⟩
  | .local _ .vmem, ⟨3, _⟩ => ⟨S1x128x1024, .f32⟩
  | .local _ .vmem, ⟨4, _⟩ => ⟨S1x128x1024, .f32⟩
  | .local _ .vmem, ⟨5, _⟩ => ⟨S1024x1024, .bf16⟩
  | .local _ .vmem, ⟨6, _⟩ => ⟨S1x1024, .f32⟩
  | .local _ .vmem, ⟨7, _⟩ => ⟨S1x2048x1024, .f32⟩
  | .local _ .vmem, ⟨8, _⟩ => ⟨S2048x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_17 : BitVec 32 := 0#32
  let v33 : BitVec 1 := Scalar.cmpi .ne v32 c0_i32_17
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S128x2048_S128 : S128x2048.Reduces [1] S128
  shapeCasts_S128_S128x1 : S128.ShapeCasts S128x1
  broadcasts_S128x1_S128x2048 : S128x1.Broadcasts S128x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S2048x1024_S1x2048x1024 : S2048x1024.ShapeCasts S1x2048x1024
  dot_S128x1024_S2048x1024_S128x2048_1_1_0_0_n_n_wf : DotDims.WF S128x1024 S2048x1024 S128x2048 [1] [1] [0] [0] [] []
  dot_S128x2048_S128x1024_S2048x1024_0_0_1_1_n_n_wf : DotDims.WF S128x2048 S128x1024 S2048x1024 [0] [0] [1] [1] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x2048x1024.size a
  hwx0_0 : ∀ i : grid0.Coords, EltTy.bits .f32 = 32 ∨ (Rect.block (s := S8x2048x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S8x2048x1024.size a
  hwx0_2 : ∀ i : grid0.Coords, EltTy.bits .f32 = 32 ∨ (Rect.block (s := S8x2048x1024) S1x128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048x1024.size a ≤ S8x2048x1024.size a
  hwx0_5 : ∀ i : grid0.Coords, EltTy.bits .f32 = 32 ∨ (Rect.block (s := S8x2048x1024) S1x2048x1024.size (cc0_transform_5 i) (hinb0_5 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S128x1024_S2048x1024_0_0_1_1_n_n : DotDims S128x2048 S128x1024 S2048x1024 where
  lhsContracting := [0]
  rhsContracting := [0]
  lhsNonContracting := [1]
  rhsNonContracting := [1]
  lhsBatch := []
  rhsBatch := []
  wf := dot_S128x2048_S128x1024_S2048x1024_0_0_1_1_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x2048x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S8x2048x2048, .f32⟩
  | .hbm, ⟨6, _⟩ => ⟨S_, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x1024_S1024x1024_S8x2048x1024_2_1_01_0_n_n_wf : DotDims.WF S8x2048x1024 S1024x1024 S8x2048x1024 [2] [1] [0, 1] [0] [] []

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.Pieces.lean ====
/-
  What each kind of grid point leaves behind, as the body's arithmetic of what it loaded — at any float instance.
  A batch's first point clears the running sum, then adds its tile's contribution to the cleared sum; every later point
  adds its contribution to the sum the point before left; the batch's last point, after adding, projects the sum it has
  just stored (plus the query rows) and stores that block of the result. Every load and store moves a whole buffer, so a
  load reads the contents as they stand and a store leaves its value.
-/
import proofs.«180669_j62689342652872_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A batch's first point: the cleared sum plus the tile's contribution. -/
theorem first_sum (c : Dev nD) (i : grid0.Coords) (arg2 : Memref sig .tc .vmem S1x128x1024 .f32) (harg2 : arg2.IsWhole) (arg3 : Memref sig .tc .vmem S1x2048x1024 .f32) (harg3 : arg3.IsWhole) (arg4 : Memref sig .tc .vmem S1x128x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond0_0 i) (hc1 : ¬cond0_1 i) (x0 : Vec F S1x128x1024 .f32) (x1 : Vec F S1x2048x1024 .f32) (x2 : Vec F S1x128x1024 .f32) (x3 : Vec F S1024x1024 .bf16) (x4 : Vec F S1x1024 .f32) :
    sout0_A_0 c i arg2 harg2 arg3 harg3 arg4 harg4 arg5 harg5 arg6 harg6 arg7 harg7 arg8 harg8 hc0 hc1 x0 x1 x2 x3 x4 = k0_pay3 x0 x1 x2 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S2048x1024) hz2, View.readCov_unit_zero (S := S2048x1024) _ hz2]
  simp only [View.readAt_eq_ld, harg2.read_unread, harg3.read_unread, harg4.read_unread,
    View.ld_unit_zero (S := S1x128x1024) hz3, View.ld_unit_zero (S := S1x2048x1024) hz3, View.ld_unit_zero (S := S2048x1024) hz2]

/-- A middle point: the sum the point before left, plus the tile's contribution. -/
theorem middle_sum (c : Dev nD) (i : grid0.Coords) (arg2 : Memref sig .tc .vmem S1x128x1024 .f32) (harg2 : arg2.IsWhole) (arg3 : Memref sig .tc .vmem S1x2048x1024 .f32) (harg3 : arg3.IsWhole) (arg4 : Memref sig .tc .vmem S1x128x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond0_0 i) (hc1 : ¬cond0_1 i) (x0 : Vec F S1x128x1024 .f32) (x1 : Vec F S1x2048x1024 .f32) (x2 : Vec F S1x128x1024 .f32) (x3 : Vec F S1024x1024 .bf16) (x4 : Vec F S1x1024 .f32) (xs0 : Vec F S2048x1024 .f32) :
    sout0_B_0 c i arg2 harg2 arg3 harg3 arg4 harg4 arg5 harg5 arg6 harg6 arg7 harg7 arg8 harg8 hc0 hc1 x0 x1 x2 x3 x4 xs0 = k0_pay3 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg4.read_unread, harg8.read_unread,
    View.ld_unit_zero (S := S1x128x1024) hz3, View.ld_unit_zero (S := S1x2048x1024) hz3, View.ld_unit_zero (S := S2048x1024) hz2]

/-- A batch's last point adds like a middle one … -/
theorem last_sum (c : Dev nD) (i : grid0.Coords) (arg2 : Memref sig .tc .vmem S1x128x1024 .f32) (harg2 : arg2.IsWhole) (arg3 : Memref sig .tc .vmem S1x2048x1024 .f32) (harg3 : arg3.IsWhole) (arg4 : Memref sig .tc .vmem S1x128x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond0_0 i) (hc1 : cond0_1 i) (x0 : Vec F S1x128x1024 .f32) (x1 : Vec F S1x2048x1024 .f32) (x2 : Vec F S1x128x1024 .f32) (x3 : Vec F S1024x1024 .bf16) (x4 : Vec F S1x1024 .f32) (xs0 : Vec F S2048x1024 .f32) :
    sout0_C_0 c i arg2 harg2 arg3 harg3 arg4 harg4 arg5 harg5 arg6 harg6 arg7 harg7 arg8 harg8 hc0 hc1 x0 x1 x2 x3 x4 xs0 = k0_pay3 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg8.read_unread,
    View.ld_unit_zero (S := S1x128x1024) hz3, View.ld_unit_zero (S := S1x2048x1024) hz3, View.ld_unit_zero (S := S2048x1024) hz2]

/-- … and stores the projection of the sum it has just completed. -/
theorem last_block (c : Dev nD) (i : grid0.Coords) (arg2 : Memref sig .tc .vmem S1x128x1024 .f32) (harg2 : arg2.IsWhole) (arg3 : Memref sig .tc .vmem S1x2048x1024 .f32) (harg3 : arg3.IsWhole) (arg4 : Memref sig .tc .vmem S1x128x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond0_0 i) (hc1 : cond0_1 i) (x0 : Vec F S1x128x1024 .f32) (x1 : Vec F S1x2048x1024 .f32) (x2 : Vec F S1x128x1024 .f32) (x3 : Vec F S1024x1024 .bf16) (x4 : Vec F S1x1024 .f32) (xs0 : Vec F S2048x1024 .f32) :
    out0_C_5 c i arg2 harg2 arg3 harg3 arg4 harg4 arg5 harg5 arg6 harg6 arg7 harg7 arg8 harg8 hc0 hc1 x0 x1 x2 x3 x4 xs0 = k0_pay1 (k0_pay3 x0 x1 x2 xs0) x1 x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3, View.readCov_unit_zero (S := S2048x1024) _ hz2]
  simp only [View.readAt_eq_ld, harg2.read_unread, harg3.read_unread, harg4.read_unread, harg5.read_unread, harg6.read_unread, harg8.read_unread,
    View.ld_unit_zero (S := S1x128x1024) hz3, View.ld_unit_zero (S := S1x2048x1024) hz3, View.ld_unit_zero (S := S2048x1024) hz2,
    View.ld_unit_zero (S := S1024x1024) hz2, View.ld_unit_zero (S := S1x1024) hz2]

end Cert.KernelIdeal.Pieces

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.ColumnSoftmax.lean ====
/-
  Attention whose softmax runs over the QUERY axis, as one function of its arguments, on the extended reals.
  For one batch: `score q k = (∑ d, u q d · m k d) · s`; for each key `k` the scores are normalized over the queries —
  `top k` their maximum, `ex q k = exp (score q k − top k)`, `weight q k = ex q k / ∑ q', ex q' k` —; the weights mix the
  value rows, `mix q d = ∑ k, weight q k · c k d`; and the residual sum is projected,
  `out q e = (∑ d, (mix q d + u q d) · W e d) + bias e`.
  The weight of `(q, k)` reads only row `k` of `m`: a tile of key rows has the weights of its own keys. A sum over the
  2048 keys is the sum over 16 tiles of 128 keys each (`sum_keys`): addition of extended reals commutes and associates,
  so no finiteness is asked.
-/
import Idealize.ShloMosaic.PureOps.Ideal
import Idealize.ShloMosaic.Lib.ValueIdx

noncomputable section

namespace Cert.ColumnSoftmax

open Idealize.ShloMosaic Idealize.ShloMosaic.ValueIdx

section OneBatch

variable {ιq ιk ιd ιe : Type} [Fintype ιq] [Fintype ιk] [Fintype ιd] [Fintype ιe]

/-- The scaled score of query `q` against key `k`. -/
def score (s : EReal) (u : ιq → ιd → EReal) (m : ιk → ιd → EReal) (q : ιq) (k : ιk) : EReal :=
  (∑ d, u q d * m k d) * s

/-- The largest score of key `k` over the queries, folded from `lo`. -/
def top (lo s : EReal) (u : ιq → ιd → EReal) (m : ιk → ιd → EReal) (k : ιk) : EReal :=
  (Finset.univ : Finset ιq).fold max lo (fun q => score s u m q k)

/-- The exponential of a score below its key's largest. -/
def ex (lo s : EReal) (u : ιq → ιd → EReal) (m : ιk → ιd → EReal) (q : ιq) (k : ιk) : EReal :=
  Ideal.exp (score s u m q k - top lo s u m k)

/-- The softmax weight of query `q` among the queries, for key `k`. -/
def weight (lo s : EReal) (u : ιq → ιd → EReal) (m : ιk → ιd → EReal) (q : ιq) (k : ιk) : EReal :=
  Ideal.div (ex lo s u m q k) (∑ q', ex lo s u m q' k)

/-- The value rows mixed by the weights. -/
def mix (lo s : EReal) (u : ιq → ιd → EReal) (m c : ιk → ιd → EReal) (q : ιq) (d : ιd) : EReal :=
  ∑ k, weight lo s u m q k * c k d

/-- The residual sum projected by `W`, plus the bias. -/
def out (lo s : EReal) (u : ιq → ιd → EReal) (m c : ιk → ιd → EReal) (W : ιe → ιd → EReal) (bias : ιe → EReal)
    (q : ιq) (e : ιe) : EReal :=
  (∑ d, (mix lo s u m c q d + u q d) * W e d) + bias e

end OneBatch

/-! ## The two constants both programs spell -/

/-- The start value of the maxima: the pattern of `−∞`. -/
abbrev lo : EReal := Ideal.ofBits .f32 0xFF800000#32
/-- The scale of the scores: the pattern of `2⁻⁵`. -/
abbrev sc : EReal := Ideal.ofBits .f32 0x3D000000#32

/-! ## The whole arrays -/

abbrev SU : Shape := ⟨3, ![8, 2048, 1024]⟩
abbrev SW : Shape := ⟨2, ![1024, 1024]⟩
abbrev SB : Shape := ⟨1, ![1024]⟩

/-- Batch `b` of a `[8, 2048, 1024]` array, as a matrix. -/
abbrev slab (X : SU.Idx → EReal) (b : Fin 8) : Fin 2048 → Fin 1024 → EReal := fun r d => X (ix3 b r d)

/-- The result array: batch by batch, `out` of that batch's slabs. -/
def result (lo s : EReal) (U M C : SU.Idx → EReal) (W : SW.Idx → EReal) (B : SB.Idx → EReal) : SU.Idx → EReal :=
  fun i => out lo s (slab U (i 0)) (slab M (i 0)) (slab C (i 0)) (fun e d => W (ix2 e d)) (fun e => B (ix1 e)) (i 1) (i 2)

/-! ## The keys, tile by tile -/

/-- Key row `kk` of the 128-row tile that grid point `n` works on: tiles follow the second grid coordinate, `n % 16`. -/
def key (n : ℕ) (kk : Fin 128) : Fin 2048 := ⟨128 * (n % 16) + kk.val, by have := kk.isLt; omega⟩

/-- The batch grid point `n` works on: the first grid coordinate, `n / 16`. -/
def batch (n : ℕ) : Fin 8 := ⟨(n / 16) % 8, by omega⟩

theorem key_val (n : ℕ) (kk : Fin 128) : (key n kk).val = 128 * (n % 16) + kk.val := rfl

theorem batch_val (n : ℕ) : (batch n).val = (n / 16) % 8 := rfl

/-- A sum over the 2048 keys is the sum, over the 16 points of one batch, of the sums over each point's 128 keys. -/
theorem sum_keys {β : Type} [AddCommMonoid β] (f : Fin 2048 → β) (b : ℕ) :
    ∑ s ∈ Finset.range 16, ∑ kk : Fin 128, f (key (16 * b + s) kk) = ∑ k : Fin 2048, f k := by
  rw [← Equiv.sum_comp (finProdFinEquiv (m := 16) (n := 128)) f, Fintype.sum_prod_type,
    ← Fin.sum_univ_eq_sum_range (fun s => ∑ kk : Fin 128, f (key (16 * b + s) kk)) 16]
  refine Finset.sum_congr rfl fun s _ => Finset.sum_congr rfl fun kk _ => congrArg f (Fin.ext ?_)
  show 128 * ((16 * b + s.val) % 16) + kk.val = kk.val + 128 * s.val
  have := s.isLt
  omega

end Cert.ColumnSoftmax

end
-- ==== Proof.BlockValue.lean ====
/-
  What one grid point's arithmetic is, index by index, on the extended reals. A point holds 128 key rows `x0`, the
  batch's 2048 query rows `x1`, the 128 value rows `x2` and the running sum `acc`. Its scores are
  `(∑ d, x0 kk d · x1 q d) · 2⁻⁵`; each key row is normalized over the 2048 queries (maximum, exponentials, their sum,
  quotient): these are the query-axis softmax weights of the tile's own keys; and the point adds
  `∑ kk, weight q kk · x2 kk d` to the running sum. The last point of a batch projects `acc + x1` by `W` and adds the bias.
  A change of float format is the identity on the extended reals, and a product into a zero accumulator is the plain sum.
-/
import proofs.«180669_j62689342652872_1_alg».proof.Proof.Gen.KernelIdeal.Skeleton
import proofs.«180669_j62689342652872_1_alg».proof.Proof.LibRowOps
import proofs.«180669_j62689342652872_1_alg».proof.Proof.ColumnSoftmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx
open Cert.ColumnSoftmax

/-! ## The three matrix products at an index -/

/-- The dimension numbers of this product. -/
abbrev DScores := dot_S128x1024_S2048x1024_S128x2048_1_1_0_0_n_n

theorem DScores_lhs_free (i : S128x2048.Idx) (k : DScores.contr.Idx) : (DScores.lhsIdx i k 0).val = (i 0).val := by
  unfold DotDims.lhsIdx
  rw [dif_neg (show ¬(0 : Fin S128x1024.rank) ∈ DScores.lhsBatch by decide), dif_pos (show (0 : Fin S128x1024.rank) ∈ DScores.lhsNonContracting by decide)]
  rfl

theorem DScores_rhs_free (i : S128x2048.Idx) (k : DScores.contr.Idx) : (DScores.rhsIdx i k 0).val = (i 1).val := by
  unfold DotDims.rhsIdx
  rw [dif_neg (show ¬(0 : Fin S2048x1024.rank) ∈ DScores.rhsBatch by decide), dif_pos (show (0 : Fin S2048x1024.rank) ∈ DScores.rhsNonContracting by decide)]
  rfl

/-- Keys against queries: entry `(kk, q)` sums over the feature axis of both. -/
theorem scores_apply (a : FVec Ideal S128x1024 .bf16) (b : FVec Ideal S2048x1024 .bf16) (kk : Fin 128) (q : Fin 2048) :
    matmul DScores none a b (constant S128x2048 .f32 0x00000000#32) (ix2 kk q)
      = ∑ d : Fin 1024, a (ix2 kk d) * b (ix2 q d) := by
  simp only [matmul]
  rw [Ideal.matmul_constant_zero_apply, ← Equiv.sum_comp (ValueIdx.contrEquiv1 DScores 1024 rfl rfl).symm]
  refine Finset.sum_congr rfl fun d _ => ?_
  have hk := ValueIdx.contrEquiv1_symm_val DScores 1024 rfl rfl d
  have el : DScores.lhsIdx (ix2 kk q) ((ValueIdx.contrEquiv1 DScores 1024 rfl rfl).symm d) = ix2 kk d := funext fun ax => Fin.ext (by
    match ax with
    | ⟨0, _⟩ => exact DScores_lhs_free _ _
    | ⟨1, _⟩ => exact (DScores.lhsIdx_val_of_single rfl _ _).trans hk)
  have er : DScores.rhsIdx (ix2 kk q) ((ValueIdx.contrEquiv1 DScores 1024 rfl rfl).symm d) = ix2 q d := funext fun ax => Fin.ext (by
    match ax with
    | ⟨0, _⟩ => exact DScores_rhs_free _ _
    | ⟨1, _⟩ => exact (DScores.rhsIdx_val_of_single rfl _ _).trans hk)
  rw [el, er]

/-- The dimension numbers of this product. -/
abbrev DMix := dot_S128x2048_S128x1024_S2048x1024_0_0_1_1_n_n

theorem DMix_lhs_free (i : S2048x1024.Idx) (k : DMix.contr.Idx) : (DMix.lhsIdx i k 1).val = (i 0).val := by
  unfold DotDims.lhsIdx
  rw [dif_neg (show ¬(1 : Fin S128x2048.rank) ∈ DMix.lhsBatch by decide), dif_pos (show (1 : Fin S128x2048.rank) ∈ DMix.lhsNonContracting by decide)]
  rfl

theorem DMix_rhs_free (i : S2048x1024.Idx) (k : DMix.contr.Idx) : (DMix.rhsIdx i k 1).val = (i 1).val := by
  unfold DotDims.rhsIdx
  rw [dif_neg (show ¬(1 : Fin S128x1024.rank) ∈ DMix.rhsBatch by decide), dif_pos (show (1 : Fin S128x1024.rank) ∈ DMix.rhsNonContracting by decide)]
  rfl

/-- Weights against value rows, both contracted over the tile's key axis: entry `(q, d)`. -/
theorem mixing_apply (a : FVec Ideal S128x2048 .bf16) (b : FVec Ideal S128x1024 .bf16) (q : Fin 2048) (d : Fin 1024) :
    matmul DMix none a b (constant S2048x1024 .f32 0x00000000#32) (ix2 q d)
      = ∑ kk : Fin 128, a (ix2 kk q) * b (ix2 kk d) := by
  simp only [matmul]
  rw [Ideal.matmul_constant_zero_apply, ← Equiv.sum_comp (ValueIdx.contrEquiv1 DMix 128 rfl rfl).symm]
  refine Finset.sum_congr rfl fun kk _ => ?_
  have hk := ValueIdx.contrEquiv1_symm_val DMix 128 rfl rfl kk
  have el : DMix.lhsIdx (ix2 q d) ((ValueIdx.contrEquiv1 DMix 128 rfl rfl).symm kk) = ix2 kk q := funext fun ax => Fin.ext (by
    match ax with
    | ⟨1, _⟩ => exact DMix_lhs_free _ _
    | ⟨0, _⟩ => exact (DMix.lhsIdx_val_of_single rfl _ _).trans hk)
  have er : DMix.rhsIdx (ix2 q d) ((ValueIdx.contrEquiv1 DMix 128 rfl rfl).symm kk) = ix2 kk d := funext fun ax => Fin.ext (by
    match ax with
    | ⟨1, _⟩ => exact DMix_rhs_free _ _
    | ⟨0, _⟩ => exact (DMix.rhsIdx_val_of_single rfl _ _).trans hk)
  rw [el, er]

/-- The dimension numbers of this product. -/
abbrev DProj := dot_S2048x1024_S1024x1024_S2048x1024_1_1_0_0_n_n

theorem DProj_lhs_free (i : S2048x1024.Idx) (k : DProj.contr.Idx) : (DProj.lhsIdx i k 0).val = (i 0).val := by
  unfold DotDims.lhsIdx
  rw [dif_neg (show ¬(0 : Fin S2048x1024.rank) ∈ DProj.lhsBatch by decide), dif_pos (show (0 : Fin S2048x1024.rank) ∈ DProj.lhsNonContracting by decide)]
  rfl

theorem DProj_rhs_free (i : S2048x1024.Idx) (k : DProj.contr.Idx) : (DProj.rhsIdx i k 0).val = (i 1).val := by
  unfold DotDims.rhsIdx
  rw [dif_neg (show ¬(0 : Fin S1024x1024.rank) ∈ DProj.rhsBatch by decide), dif_pos (show (0 : Fin S1024x1024.rank) ∈ DProj.rhsNonContracting by decide)]
  rfl

/-- The projection: rows against the rows of `W`, entry `(q, e)`. -/
theorem project_apply (a : FVec Ideal S2048x1024 .bf16) (b : FVec Ideal S1024x1024 .bf16) (q : Fin 2048) (e : Fin 1024) :
    matmul DProj none a b (constant S2048x1024 .f32 0x00000000#32) (ix2 q e)
      = ∑ d : Fin 1024, a (ix2 q d) * b (ix2 e d) := by
  simp only [matmul]
  rw [Ideal.matmul_constant_zero_apply, ← Equiv.sum_comp (ValueIdx.contrEquiv1 DProj 1024 rfl rfl).symm]
  refine Finset.sum_congr rfl fun d _ => ?_
  have hk := ValueIdx.contrEquiv1_symm_val DProj 1024 rfl rfl d
  have el : DProj.lhsIdx (ix2 q e) ((ValueIdx.contrEquiv1 DProj 1024 rfl rfl).symm d) = ix2 q d := funext fun ax => Fin.ext (by
    match ax with
    | ⟨0, _⟩ => exact DProj_lhs_free _ _
    | ⟨1, _⟩ => exact (DProj.lhsIdx_val_of_single rfl _ _).trans hk)
  have er : DProj.rhsIdx (ix2 q e) ((ValueIdx.contrEquiv1 DProj 1024 rfl rfl).symm d) = ix2 e d := funext fun ax => Fin.ext (by
    match ax with
    | ⟨0, _⟩ => exact DProj_rhs_free _ _
    | ⟨1, _⟩ => exact (DProj.rhsIdx_val_of_single rfl _ _).trans hk)
  rw [el, er]

/-! ## One point's stages -/

section Stages

variable (x0 : Vec Ideal S1x128x1024 .f32) (x1 : Vec Ideal S1x2048x1024 .f32) (x2 : Vec Ideal S1x128x1024 .f32)

/-- The tile's 128 key rows, the batch's 2048 query rows and the tile's 128 value rows, as matrices. -/
abbrev keyRows : Fin 128 → Fin 1024 → EReal := fun kk d => x0 (ix3 (0 : Fin 1) kk d)
abbrev queryRows : Fin 2048 → Fin 1024 → EReal := fun q d => x1 (ix3 (0 : Fin 1) q d)
abbrev valueRows : Fin 128 → Fin 1024 → EReal := fun kk d => x2 (ix3 (0 : Fin 1) kk d)

/-- The scaled scores of the tile's keys against every query. -/
def tileScores : FVec Ideal S128x2048 .f32 :=
  mulf (matmul DScores none (truncf .bf16 (shapeCast S128x1024 x0 shapeCasts_S1x128x1024_S128x1024) bitsLt_bf16_f32)
      (truncf .bf16 (shapeCast S2048x1024 x1 shapeCasts_S1x2048x1024_S2048x1024) bitsLt_bf16_f32)
      (constant S128x2048 .f32 0x00000000#32))
    (broadcast S128x2048 (Scalar.ofBits .f32 0x3D000000#32))

/-- Each key row's largest score. -/
def tileTop : FVec Ideal S128 .f32 :=
  multiReduction .maximumf [1] S128 (tileScores x0 x1) 0xFF800000#32 reduces_S128x2048_S128 (.inl rfl) rfl

/-- The exponentials of the scores below their row's largest. -/
def tileEx : FVec Ideal S128x2048 .f32 :=
  exp (subf (tileScores x0 x1)
    (broadcastTo S128x2048 (shapeCast S128x1 (tileTop x0 x1) shapeCasts_S128_S128x1) broadcasts_S128x1_S128x2048))

/-- Each key row's sum of exponentials. -/
def tileDen : FVec Ideal S128 .f32 :=
  multiReduction .add [1] S128 (tileEx x0 x1) 0x00000000#32 reduces_S128x2048_S128 (.inl rfl) rfl

/-- The weights: each exponential over its row's sum. -/
def tileWeights : FVec Ideal S128x2048 .f32 :=
  divf (tileEx x0 x1)
    (broadcastTo S128x2048 (shapeCast S128x1 (tileDen x0 x1) shapeCasts_S128_S128x1) broadcasts_S128x1_S128x2048)

/-- The point's new running sum is the old one plus the weights against the value rows. -/
theorem pay3_eq (acc : Vec Ideal S2048x1024 .f32) :
    k0_pay3 x0 x1 x2 acc
      = addf acc (matmul DMix none (truncf .bf16 (tileWeights x0 x1) bitsLt_bf16_f32)
          (truncf .bf16 (shapeCast S128x1024 x2 shapeCasts_S1x128x1024_S128x1024) bitsLt_bf16_f32)
          (constant S2048x1024 .f32 0x00000000#32)) :=
  shapeCast_self _ _

theorem tileScores_at (kk : Fin 128) (q : Fin 2048) :
    tileScores x0 x1 (ix2 kk q) = score sc (queryRows x1) (keyRows x0) q kk := by
  unfold tileScores
  show matmul (F := Ideal) DScores none _ _ _ (ix2 kk q) * Ideal.ofBits .f32 0x3D000000#32 = _
  rw [scores_apply]
  show (∑ d : Fin 1024, shapeCast S128x1024 x0 _ (ix2 kk d) * shapeCast S2048x1024 x1 _ (ix2 q d)) * sc
    = (∑ d : Fin 1024, x1 (ix3 (0 : Fin 1) q d) * x0 (ix3 (0 : Fin 1) kk d)) * sc
  congr 1
  refine Finset.sum_congr rfl fun d _ => ?_
  rw [shapeCast_1ab_ab_apply, shapeCast_1ab_ab_apply, mul_comm]

theorem tileTop_at (kk : Fin 128) : tileTop x0 x1 (ix1 kk) = top lo sc (queryRows x1) (keyRows x0) kk := by
  unfold tileTop
  refine (RowOps.rowMax_apply (tileScores x0 x1) 0xFF800000#32 reduces_S128x2048_S128 (.inl rfl) rfl kk).trans ?_
  show (Finset.univ : Finset (Fin 2048)).fold max lo (fun q => tileScores x0 x1 (ix2 kk q)) = _
  rw [show (fun q : Fin 2048 => tileScores x0 x1 (ix2 kk q)) = fun q => score sc (queryRows x1) (keyRows x0) q kk from
    funext fun q => tileScores_at x0 x1 kk q]
  rfl

theorem tileEx_at (kk : Fin 128) (q : Fin 2048) :
    tileEx x0 x1 (ix2 kk q) = ex lo sc (queryRows x1) (keyRows x0) q kk := by
  unfold tileEx
  show Ideal.exp (tileScores x0 x1 (ix2 kk q) - broadcastTo S128x2048 _ _ (ix2 kk q)) = _
  rw [RowOps.broadcastTo_a1_ab_apply, RowOps.shapeCast_a_a1_apply, tileScores_at, tileTop_at]
  rfl

theorem tileDen_at (kk : Fin 128) : tileDen x0 x1 (ix1 kk) = ∑ q : Fin 2048, ex lo sc (queryRows x1) (keyRows x0) q kk := by
  unfold tileDen
  refine (RowOps.rowSum_apply (tileEx x0 x1) 0x00000000#32 reduces_S128x2048_S128 (.inl rfl) rfl kk).trans ?_
  exact Finset.sum_congr rfl fun q _ => tileEx_at x0 x1 kk q

theorem tileWeights_at (kk : Fin 128) (q : Fin 2048) :
    tileWeights x0 x1 (ix2 kk q) = weight lo sc (queryRows x1) (keyRows x0) q kk := by
  unfold tileWeights
  show Ideal.div (tileEx x0 x1 (ix2 kk q)) (broadcastTo S128x2048 _ _ (ix2 kk q)) = _
  rw [RowOps.broadcastTo_a1_ab_apply, RowOps.shapeCast_a_a1_apply, tileEx_at, tileDen_at]
  rfl

/-- One point's contribution at `(q, d)`: the tile's weights against its value rows. -/
def contribution (q : Fin 2048) (d : Fin 1024) : EReal :=
  ∑ kk : Fin 128, weight lo sc (queryRows x1) (keyRows x0) q kk * valueRows x2 kk d

/-- The new running sum at an index. -/
theorem pay3_at (acc : Vec Ideal S2048x1024 .f32) (q : Fin 2048) (d : Fin 1024) :
    k0_pay3 x0 x1 x2 acc (ix2 q d) = acc (ix2 q d) + contribution x0 x1 x2 q d := by
  rw [pay3_eq]
  show acc (ix2 q d) + matmul (F := Ideal) DMix none _ _ _ (ix2 q d) = _
  rw [mixing_apply]
  refine congrArg (acc (ix2 q d) + ·) (Finset.sum_congr rfl fun kk _ => ?_)
  show tileWeights x0 x1 (ix2 kk q) * shapeCast S128x1024 x2 _ (ix2 kk d) = _
  rw [tileWeights_at, shapeCast_1ab_ab_apply]

end Stages

/-- The cleared running sum is zero everywhere. -/
theorem pay2_at (j : S2048x1024.Idx) : k0_pay2 (F := Ideal) j = 0 := by
  unfold k0_pay2
  rw [shapeCast_self]
  exact Ideal.ofBits_zero_f32

/-- The result block of a batch's last point, at `(q, e)`: the completed sum plus the query rows, against the rows of
    `W`, plus the bias. -/
theorem pay1_at (acc : Vec Ideal S2048x1024 .f32) (x1 : Vec Ideal S1x2048x1024 .f32) (x3 : Vec Ideal S1024x1024 .bf16)
    (x4 : Vec Ideal S1x1024 .f32) (q : Fin 2048) (e : Fin 1024) :
    k0_pay1 acc x1 x3 x4 (ix3 (0 : Fin 1) q e)
      = (∑ d : Fin 1024, (acc (ix2 q d) + x1 (ix3 (0 : Fin 1) q d)) * x3 (ix2 e d)) + x4 (ix2 (0 : Fin 1) e) := by
  unfold k0_pay1
  rw [shapeCast_ab_1ab_apply]
  show matmul (F := Ideal) DProj none _ _ _ (ix2 q e) + broadcastTo S2048x1024 _ _ (ix2 q e) = _
  rw [project_apply, broadcastTo_1b_ab_apply, shapeCast_self, shapeCast_self]
  refine congrArg (· + x4 (ix2 (0 : Fin 1) e)) (Finset.sum_congr rfl fun d _ => ?_)
  show (acc (ix2 q d) + shapeCast S2048x1024 x1 _ (ix2 q d)) * x3 (ix2 e d) = _
  rw [shapeCast_1ab_ab_apply]

end Cert.KernelIdeal.BlockValue

end
-- ==== Proof.KernelValue.lean ====
/-
  The kernel's result array, as one function of its arguments. Grid point `t` works on batch `t / 16` and on key tile
  `t % 16`: its key and value blocks are rows `128·(t % 16) + kk` of that batch, its query block the batch's 2048 rows.
  The running sum after point `t` is, at `(q, d)`, zero plus the contributions of the batch's tiles up to `t % 16` (a fold
  from the batch's first point, where the sum is cleared); after the batch's last tile that is the sum over all 2048 keys,
  the softmax weights against the value rows. The last point stores the projection of that sum plus the query rows, plus
  the bias, as block `t / 16` of the result, and the eight such blocks cover the array.
-/
import proofs.«180669_j62689342652872_1_alg».proof.Proof.Gen.KernelIdeal.Value
import proofs.«180669_j62689342652872_1_alg».proof.Proof.Pieces
import proofs.«180669_j62689342652872_1_alg».proof.Proof.BlockValue
import proofs.«180669_j62689342652872_1_alg».proof.Proof.ColumnSoftmax
import Idealize.ShloMosaic.Lib.Pipeline.Value
import Idealize.ShloMosaic.Lib.StableHlo.Run
import Idealize.ShloMosaic.Lib.ValueLayout

noncomputable section

namespace Cert.KernelIdeal.WholeValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.ColumnSoftmax Cert.KernelIdeal.BlockValue

variable (m : (ℓ : Loc nD τ sig) → Buf (Elt Ideal) ℓ) (ρ : Dev nD → PrngReg)

/-! ## The arguments, and where each point's blocks sit in them -/

/-- The query, key and value arrays, the projection matrix and the bias, as launched. -/
abbrev qArr (c : Dev nD) : SU.Idx → EReal := m ((c : Thread nD τ).loc main_arg0)
abbrev kArr (c : Dev nD) : SU.Idx → EReal := m ((c : Thread nD τ).loc main_arg1)
abbrev vArr (c : Dev nD) : SU.Idx → EReal := m ((c : Thread nD τ).loc main_arg2)
abbrev wArr (c : Dev nD) : SW.Idx → EReal := m ((c : Thread nD τ).loc main_arg3)
abbrev bArr (c : Dev nD) : SB.Idx → EReal := m ((c : Thread nD τ).loc main_arg4)

/-- The block indices of every window at every point: batch `t / 16`, tile `t % 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 16 ∧ win0_5.index t (1 : Fin 3) = 0 ∧ win0_5.index t (2 : Fin 3) = 0 :=
  (by decide +kernel : ∀ t : Fin grid0.N, _)

/-- The key block: rows `128·(t % 16) + kk` of batch `t / 16`. -/
theorem keys_read (c : Dev nD) (t : Fin cfg0.N) (kk : Fin 128) (d : Fin 1024) :
    (iblk m c 0 t : Vec Ideal S1x128x1024 .f32) (ix3 (0 : Fin 1) kk d) = kArr m c (ix3 (batch t.val) (key t.val kk) d) := by
  obtain ⟨e0, e1, e2, -⟩ := idx_facts t
  have hN : t.val < 128 := lt_of_lt_of_eq t.isLt (show cfg0.N = 128 from N_0)
  unfold iblk
  rw [View.read_apply]
  show V m c main_arg1 (((cfg0.win 0).blk t).view.emb (ix3 (0 : Fin 1) kk d)) = _
  rw [V_main_arg1]
  refine congrArg (m ((c : Thread nD τ).loc main_arg1)) ?_
  funext a; apply Fin.ext
  match a with
  | ⟨0, _⟩ => show win0_0.index t (0 : Fin 3) * 1 + 1 * 0 = (t.val / 16) % 8; rw [e0]; try omega
  | ⟨1, _⟩ => show win0_0.index t (1 : Fin 3) * 128 + 1 * kk.val = 128 * (t.val % 16) + kk.val; rw [e1]; try omega
  | ⟨2, _⟩ => show win0_0.index t (2 : Fin 3) * 1024 + 1 * d.val = d.val; rw [e2]; try omega

/-- The query block: all rows of batch `t / 16`. -/
theorem queries_read (c : Dev nD) (t : Fin cfg0.N) (q : Fin 2048) (d : Fin 1024) :
    (iblk m c 1 t : Vec Ideal S1x2048x1024 .f32) (ix3 (0 : Fin 1) q d) = qArr m c (ix3 (batch t.val) q d) := by
  obtain ⟨-, -, -, e0, e1, e2, -⟩ := idx_facts t
  have hN : t.val < 128 := lt_of_lt_of_eq t.isLt (show cfg0.N = 128 from N_0)
  unfold iblk
  rw [View.read_apply]
  show V m c main_arg0 (((cfg0.win 1).blk t).view.emb (ix3 (0 : Fin 1) q d)) = _
  rw [V_main_arg0]
  refine congrArg (m ((c : Thread nD τ).loc main_arg0)) ?_
  funext a; apply Fin.ext
  match a with
  | ⟨0, _⟩ => show win0_1.index t (0 : Fin 3) * 1 + 1 * 0 = (t.val / 16) % 8; rw [e0]; try omega
  | ⟨1, _⟩ => show win0_1.index t (1 : Fin 3) * 2048 + 1 * q.val = q.val; rw [e1]; try omega
  | ⟨2, _⟩ => show win0_1.index t (2 : Fin 3) * 1024 + 1 * d.val = d.val; rw [e2]; try omega

/-- The value block: the same rows as the key block. -/
theorem values_read (c : Dev nD) (t : Fin cfg0.N) (kk : Fin 128) (d : Fin 1024) :
    (iblk m c 2 t : Vec Ideal S1x128x1024 .f32) (ix3 (0 : Fin 1) kk d) = vArr m c (ix3 (batch t.val) (key t.val kk) d) := by
  obtain ⟨-, -, -, -, -, -, e0, e1, e2, -⟩ := idx_facts t
  have hN : t.val < 128 := lt_of_lt_of_eq t.isLt (show cfg0.N = 128 from N_0)
  unfold iblk
  rw [View.read_apply]
  show V m c main_arg2 (((cfg0.win 2).blk t).view.emb (ix3 (0 : Fin 1) kk d)) = _
  rw [V_main_arg2]
  refine congrArg (m ((c : Thread nD τ).loc main_arg2)) ?_
  funext a; apply Fin.ext
  match a with
  | ⟨0, _⟩ => show win0_2.index t (0 : Fin 3) * 1 + 1 * 0 = (t.val / 16) % 8; rw [e0]; try omega
  | ⟨1, _⟩ => show win0_2.index t (1 : Fin 3) * 128 + 1 * kk.val = 128 * (t.val % 16) + kk.val; rw [e1]; try omega
  | ⟨2, _⟩ => show win0_2.index t (2 : Fin 3) * 1024 + 1 * d.val = d.val; rw [e2]; try omega

/-- The projection matrix reaches the region through a change of float format: the identity on the extended reals. -/
theorem matrix_entry (c : Dev nD) : (V m c main_v0 : S1024x1024.Idx → EReal) = wArr m c := by
  have e : (V m c main_v0 : S1024x1024.Idx → EReal)
      = truncf (F := Ideal) .bf16 (m ((c : Thread nD τ).loc main_arg3)) bitsLt_bf16_f32 := by
    dsimp only [Gen.V, Gen.hostOps0]; after_results
  rw [e]; rfl

/-- The bias reaches the region as a one-row matrix. -/
theorem bias_entry (c : Dev nD) (e : Fin 1024) : (V m c main_v1 : S1x1024.Idx → EReal) (ix2 (0 : Fin 1) e) = bArr m c (ix1 e) := by
  have h : (V m c main_v1 : S1x1024.Idx → EReal)
      = shapeCast S1x1024 (m ((c : Thread nD τ).loc main_arg4)) shapeCasts_S1024_S1x1024 := by
    dsimp only [Gen.V, Gen.hostOps0]; after_results; rfl
  rw [h]
  exact shapeCast_a_1a_apply _ _ _ _

/-- The projection matrix's one block is the whole matrix. -/
theorem matrix_read (c : Dev nD) (t : Fin cfg0.N) (e d : Fin 1024) :
    (iblk m c 3 t : Vec Ideal S1024x1024 .bf16) (ix2 e d) = wArr m c (ix2 e d) := by
  obtain ⟨-, -, -, -, -, -, -, -, -, e0, e1, -⟩ := idx_facts t
  unfold iblk
  rw [View.read_apply]
  show V m c main_v0 (((cfg0.win 3).blk t).view.emb (ix2 e d)) = _
  rw [matrix_entry]
  refine congrArg (m ((c : Thread nD τ).loc main_arg3)) ?_
  funext a; apply Fin.ext
  match a with
  | ⟨0, _⟩ => show win0_3.index t (0 : Fin 2) * 1024 + 1 * e.val = e.val; rw [e0]; try omega
  | ⟨1, _⟩ => show win0_3.index t (1 : Fin 2) * 1024 + 1 * d.val = d.val; rw [e1]; try omega

/-- The bias's one block is the whole row. -/
theorem bias_read (c : Dev nD) (t : Fin cfg0.N) (e : Fin 1024) :
    (iblk m c 4 t : Vec Ideal S1x1024 .f32) (ix2 (0 : Fin 1) e) = bArr m c (ix1 e) := by
  obtain ⟨-, -, -, -, -, -, -, -, -, -, -, e0, e1, -⟩ := idx_facts t
  unfold iblk
  rw [View.read_apply]
  show V m c main_v1 (((cfg0.win 4).blk t).view.emb (ix2 (0 : Fin 1) e)) = _
  rw [← bias_entry]
  refine congrArg (V m c main_v1) ?_
  funext a; apply Fin.ext
  match a with
  | ⟨0, _⟩ => show win0_4.index t (0 : Fin 2) * 1 + 1 * 0 = 0; rw [e0]
  | ⟨1, _⟩ => show win0_4.index t (1 : Fin 2) * 1024 + 1 * e.val = e.val; rw [e1]; try omega

/-! ## One point's contribution, in the arguments -/

/-- The contribution of the tile of point `n` to the running sum of batch `b`, at `(q, d)`: the softmax weights of the
    tile's 128 keys against their value rows. -/
def tileTerm (U K C : SU.Idx → EReal) (b : Fin 8) (n : ℕ) (q : Fin 2048) (d : Fin 1024) : EReal :=
  ∑ kk : Fin 128, weight lo sc (slab U b) (slab K b) q (key n kk) * C (ix3 b (key n kk) d)

/-- A point's contribution, read in the arguments. -/
theorem contribution_eq (c : Dev nD) (t : Fin cfg0.N) (q : Fin 2048) (d : Fin 1024) :
    contribution (iblk m c 0 t) (iblk m c 1 t) (iblk m c 2 t) q d
      = tileTerm (qArr m c) (kArr m c) (vArr m c) (batch t.val) t.val q d := by
  have hq : queryRows (iblk m c 1 t) = slab (qArr m c) (batch t.val) :=
    funext fun q' => funext fun d' => queries_read m c t q' d'
  have hk : keyRows (iblk m c 0 t) = fun kk => slab (kArr m c) (batch t.val) (key t.val kk) :=
    funext fun kk => funext fun d' => keys_read m c t kk d'
  have hv : valueRows (iblk m c 2 t) = fun kk d' => vArr m c (ix3 (batch t.val) (key t.val kk) d') :=
    funext fun kk => funext fun d' => values_read m c t kk d'
  unfold contribution tileTerm
  rw [hq, hk, hv]
  exact Finset.sum_congr rfl fun kk _ => rfl

/-- What a point leaves in the running sum: at a batch's first point the cleared sum plus its contribution, at any
    other the sum it found plus its contribution. -/
theorem step_at (c : Dev nD) (n : ℕ) (hb : n < cfg0.N) (acc : Vec Ideal S2048x1024 .f32) (q : Fin 2048) (d : Fin 1024) :
    Value.scAt0_0 m c n hb acc (ix2 q d)
      = (if n % 16 = 0 then 0 else acc (ix2 q d)) + tileTerm (qArr m c) (kArr m c) (vArr m c) (batch n) n q d := by
  have hN : n < 128 := lt_of_lt_of_eq hb (show cfg0.N = 128 from N_0)
  unfold Value.scAt0_0
  by_cases h0 : n % 16 = 0
  · have h1 : ¬n % 16 = 15 := by omega
    rw [dif_pos h0, dif_neg h1, if_pos h0]
    refine (congrFun (Pieces.first_sum (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))) (ix2 q d)).trans ?_
    rw [pay3_at, pay2_at, contribution_eq m c (⟨n, hb⟩ : Fin cfg0.N)]
  · rw [dif_neg h0, if_neg h0]
    by_cases h1 : n % 16 = 15
    · rw [dif_pos h1]
      refine (congrFun (Pieces.last_sum (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) (ix2 q d)).trans ?_
      rw [pay3_at, contribution_eq m c (⟨n, hb⟩ : Fin cfg0.N)]
    · rw [dif_neg h1]
      refine (congrFun (Pieces.middle_sum (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) (ix2 q d)).trans ?_
      rw [pay3_at, contribution_eq m c (⟨n, hb⟩ : Fin cfg0.N)]

/-- THE RUNNING SUM after point `t`, at `(q, d)`: zero plus the contributions of the batch's tiles up to `t`'s. -/
theorem running_sum (c : Dev nD) (t : Fin cfg0.N) (q : Fin 2048) (d : Fin 1024) :
    (outsAt0 m c t.val t.isLt).2 (ix2 q d)
      = 0 + ∑ s ∈ Finset.range (t.val % 16 + 1),
          tileTerm (qArr m c) (kArr m c) (vArr m c) (batch (16 * (t.val / 16) + s)) (16 * (t.val / 16) + s) q d := by
  have hN : cfg0.N = 128 := N_0
  have ht : t.val < 128 := lt_of_lt_of_eq t.isLt hN
  rw [Value.soutsAt0_0_eq m c t]
  refine Pipeline.accAt_add_apply (fun n h => Value.scAt0_0 m c n h (VS0_0.read (Elt Ideal) VS0_0.junk)) (Value.scAt0_0 m c)
    (fun _ => (0 : EReal)) (fun n (j : S2048x1024.Idx) => tileTerm (qArr m c) (kArr m c) (vArr m c) (batch n) n (j 0) (j 1))
    (16 * (t.val / 16)) 15 ?_ ?_ (t.val % 16) (by omega) _ (ix2 q d)
  · intro h i
    obtain ⟨q', d', rfl⟩ : ∃ (q' : Fin 2048) (d' : Fin 1024), i = ix2 q' d' := ⟨i 0, i 1, eq_ix2 i⟩
    rw [step_at, if_pos (by omega)]
  · intro n h acc i hlo hhi
    obtain ⟨q', d', rfl⟩ : ∃ (q' : Fin 2048) (d' : Fin 1024), i = ix2 q' d' := ⟨i 0, i 1, eq_ix2 i⟩
    rw [step_at, if_neg (by omega)]

/-- After a batch's last tile the running sum is the weights against ALL the batch's value rows. -/
theorem completed_sum (c : Dev nD) (t : Fin cfg0.N) (h1 : t.val % 16 = 15) (q : Fin 2048) (d : Fin 1024) :
    (outsAt0 m c t.val t.isLt).2 (ix2 q d)
      = mix lo sc (slab (qArr m c) (batch t.val)) (slab (kArr m c) (batch t.val)) (slab (vArr m c) (batch t.val)) q d := by
  have ht : t.val < 128 := lt_of_lt_of_eq t.isLt (show cfg0.N = 128 from N_0)
  rw [running_sum, h1, zero_add]
  have hb : ∀ s ∈ Finset.range 16, tileTerm (qArr m c) (kArr m c) (vArr m c) (batch (16 * (t.val / 16) + s)) (16 * (t.val / 16) + s) q d
      = ∑ kk : Fin 128, (fun k : Fin 2048 => weight lo sc (slab (qArr m c) (batch t.val)) (slab (kArr m c) (batch t.val)) q k
          * vArr m c (ix3 (batch t.val) k d)) (key (16 * (t.val / 16) + s) kk) := by
    intro s hs
    have hs' : s < 16 := Finset.mem_range.mp hs
    have e : batch (16 * (t.val / 16) + s) = batch t.val := Fin.ext (by show (16 * (t.val / 16) + s) / 16 % 8 = t.val / 16 % 8; omega)
    rw [e]
    rfl
  rw [Finset.sum_congr rfl hb]
  exact sum_keys (fun k : Fin 2048 => weight lo sc (slab (qArr m c) (batch t.val)) (slab (kArr m c) (batch t.val)) q k
    * vArr m c (ix3 (batch t.val) k d)) (t.val / 16)

/-! ## The result block of a batch's last point -/

/-- At a batch's last point the stored block is the projection of the sum that point has just completed. -/
theorem last_out (c : Dev nD) (t : Fin cfg0.N) (h0 : ¬t.val % 16 = 0) (h1 : t.val % 16 = 15) :
    (outsAt0 m c t.val t.isLt).1
      = k0_pay1 (outsAt0 m c t.val t.isLt).2 (iblk m c 1 t) (iblk m c 3 t) (iblk m c 4 t) := by
  rw [outsAt0_C m c t h0 h1]
  dsimp only
  rw [Pieces.last_block (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) _,
    Pieces.last_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) _]

/-- The kernel's result array as one function of its arguments. -/
def whole (c : Dev nD) : SU.Idx → EReal := result lo sc (qArr m c) (kArr m c) (vArr m c) (wArr m c) (bArr m c)

/-- The stored block, entry `(q, e)`, is the result at `(t / 16, q, e)`. -/
theorem out_block (c : Dev nD) (t : Fin cfg0.N) (h1 : t.val % 16 = 15) (q : Fin 2048) (e : Fin 1024) :
    (outsAt0 m c t.val t.isLt).1 (ix3 (0 : Fin 1) q e) = whole m c (ix3 (batch t.val) q e) := by
  have h0 : ¬t.val % 16 = 0 := by omega
  rw [last_out m c t h0 h1, pay1_at, bias_read]
  show _ = (∑ d : Fin 1024, (mix lo sc (slab (qArr m c) (batch t.val)) (slab (kArr m c) (batch t.val)) (slab (vArr m c) (batch t.val)) q d
    + qArr m c (ix3 (batch t.val) q d)) * wArr m c (ix2 e d)) + bArr m c (ix1 e)
  refine congrArg (· + bArr m c (ix1 e)) (Finset.sum_congr rfl fun d _ => ?_)
  rw [completed_sum m c t h1, queries_read, matrix_read]

/-- WHAT A BATCH'S LAST POINT WRITES BACK is its block of `whole`. -/
theorem flushed_eq (c : Dev nD) (t : Fin cfg0.N) (hf : (cfg0.win 5).flush t = true) :
    (dats m 0 c).flushed 5 t = ((cfg0.win 5).blk t).view.read (Elt Ideal) (whole m c) := by
  have h1 : t.val % 16 = 15 := (flush0_5 t).mp hf
  have ht : t.val < 128 := lt_of_lt_of_eq t.isLt (show cfg0.N = 128 from N_0)
  obtain ⟨-, -, -, -, -, -, -, -, -, -, -, -, -, e0, e1, e2⟩ := idx_facts t
  rw [Value.flushed5]
  funext y
  obtain ⟨u, q, e, rfl⟩ : ∃ (u : Fin 1) (q : Fin 2048) (e : Fin 1024), y = (ix3 u q e : S1x2048x1024.Idx) := ⟨y 0, y 1, y 2, eq_ix3 y⟩
  obtain rfl : u = 0 := Subsingleton.elim _ _
  rw [View.read_apply]
  show (outsAt0 m c t.val t.isLt).1 (ix3 (0 : Fin 1) q e) = whole m c (((cfg0.win 5).blk t).view.emb (ix3 (0 : Fin 1) q e))
  rw [out_block m c t h1]
  refine congrArg (whole m c) ?_
  funext a; apply Fin.ext
  match a with
  | ⟨0, _⟩ => show (t.val / 16) % 8 = win0_5.index t (0 : Fin 3) * 1 + 1 * 0; rw [e0]; try omega
  | ⟨1, _⟩ => show q.val = win0_5.index t (1 : Fin 3) * 2048 + 1 * q.val; rw [e1]; try omega
  | ⟨2, _⟩ => show e.val = win0_5.index t (2 : Fin 3) * 1024 + 1 * e.val; rw [e2]; try omega

/-- An index of the result is in point `t`'s block iff each coordinate is in the block's range on its axis. -/
theorem mem_blk (t : Fin cfg0.N) (i : S8x2048x1024.Idx) :
    i ∈ ((cfg0.win 5).blk t).view.set ↔ ∀ a : Fin 3, win0_5.index t a * S1x2048x1024.size a ≤ (i a).val
      ∧ (i a).val < win0_5.index t a * S1x2048x1024.size a + S1x2048x1024.size a := by
  show i ∈ ((View.whole main_v2).slice (win0_5.rect t)).set ↔ _
  rw [View.set_slice_whole, Rect.mem_set_unit]
  exact Iff.rfl

/-- Every index of the result is in the block its batch's last point writes back. -/
theorem cover (i : S8x2048x1024.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  have hN : cfg0.N = 128 := N_0
  have hlt : 16 * (i 0).val + 15 < cfg0.N := by omega
  obtain ⟨-, -, -, -, -, -, -, -, -, -, -, -, -, e0, e1, e2⟩ := idx_facts ⟨16 * (i 0).val + 15, hlt⟩
  refine ⟨⟨16 * (i 0).val + 15, hlt⟩, (flush0_5 _).mpr (by show (16 * (i 0).val + 15) % 16 = 15; omega), ?_⟩
  rw [mem_blk]
  intro a
  match a with
  | ⟨0, _⟩ =>
    show win0_5.index ⟨16 * (i 0).val + 15, hlt⟩ (0 : Fin 3) * 1 ≤ (i 0).val
      ∧ (i 0).val < win0_5.index ⟨16 * (i 0).val + 15, hlt⟩ (0 : Fin 3) * 1 + 1
    rw [e0]; show (16 * (i 0).val + 15) / 16 * 1 ≤ (i 0).val ∧ (i 0).val < (16 * (i 0).val + 15) / 16 * 1 + 1; omega
  | ⟨1, _⟩ =>
    show win0_5.index ⟨16 * (i 0).val + 15, hlt⟩ (1 : Fin 3) * 2048 ≤ (i 1).val
      ∧ (i 1).val < win0_5.index ⟨16 * (i 0).val + 15, hlt⟩ (1 : Fin 3) * 2048 + 2048
    rw [e1]; omega
  | ⟨2, _⟩ =>
    show win0_5.index ⟨16 * (i 0).val + 15, hlt⟩ (2 : Fin 3) * 1024 ≤ (i 2).val
      ∧ (i 2).val < win0_5.index ⟨16 * (i 0).val + 15, hlt⟩ (2 : Fin 3) * 1024 + 1024
    rw [e2]; omega

/-- So the result array ends holding `whole`. -/
theorem final (c : Dev nD) : (dats m 0 c).arrAt 5 cfg0.N = whole m c :=
  (dats m 0 c).arrAt_eq_of_cover 5 (whole m c) (flushed_eq m c) cover

/-- The kernel's run, read: the result array at `whole` of the arguments, the arguments unchanged. -/
theorem run : θ_run defs (onTc (τ := τ) (main (F := Ideal))) ⟨m, fun _ => 0, ρ⟩ fun r => ∀ c : Dev nD,
      r.2.mem ((c : Thread nD τ).loc main_v2) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.WholeValue

end
-- ==== Proof.Consts.lean ====
/-
  The float constants the two programs spell, as the extended reals their patterns denote: the zero, the kernel's scale
  `2⁻⁵` and the reference's `1024`, whose square root is `32`; so dividing by `√1024` is multiplying by `2⁻⁵`, at every
  extended real (an infinity included: the divisor is a nonzero real).
-/
import Idealize.ShloMosaic.PureOps.Ideal
import Idealize.ShloMosaic.PureOps.Ideal.Laws

noncomputable section

namespace Cert.Consts

open Idealize.ShloMosaic

/-- `1024.0` denotes the real `1024`. -/
theorem ofBits_1024 : Ideal.ofBits .f32 0x44800000#32 = ((1024 : ℝ) : EReal) := by
  simp [Ideal.ofBits, Ideal.ieee, -EReal.coe_mul]; norm_num

/-- `0.03125` denotes the real `1/32`. -/
theorem ofBits_inv32 : Ideal.ofBits .f32 0x3D000000#32 = ((1 / 32 : ℝ) : EReal) := by
  simp [Ideal.ofBits, Ideal.ieee, -EReal.coe_mul]; norm_num

/-- The square root of `1024` is `32`. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num)]
  have h : Real.sqrt 1024 = 32 := by
    rw [show (1024 : ℝ) = 32 ^ 2 by norm_num]
    exact Real.sqrt_sq (by norm_num)
  rw [h]

/-- A quotient by `√1024` is the product with `2⁻⁵`, on every extended real. -/
theorem div_sqrt_1024 (x : EReal) :
    Ideal.div x (Ideal.sqrt (Ideal.ofBits .f32 0x44800000#32)) = x * Ideal.ofBits .f32 0x3D000000#32 := by
  rw [ofBits_1024, sqrt_1024, ofBits_inv32, Ideal.div_coe (by norm_num : (32 : ℝ) ≠ 0)]

end Cert.Consts

end
-- ==== Proof.ReferenceValue.lean ====
/-
  The reference's result, read stage by stage at an index, is the query-axis attention of its arguments
  (`ColumnSoftmax.result`): the batched products are the scores (the quotient by `√1024` is the product with `2⁻⁵`), the
  maximum over the query axis — taken once more against its own start value `−∞`, which changes nothing — is `top`, the sum of
  exponentials from `0` is the plain sum, and the two later products are `mix` and the projection.
-/
import proofs.«180669_j62689342652872_1_alg».proof.Proof.Gen.ReferenceIdeal.Read
import proofs.«180669_j62689342652872_1_alg».proof.Proof.Consts
import proofs.«180669_j62689342652872_1_alg».proof.Proof.ColumnSoftmax

noncomputable section

namespace Cert.ReferenceIdeal.RefValue

open Cert.ReferenceIdeal Cert.ReferenceIdeal.Gen Cert.ReferenceIdeal.Read Idealize.ShloMosaic Idealize.ShloMosaic.ValueIdx
open Cert.ColumnSoftmax

variable (U M C : (⟨S8x2048x1024, .f32⟩ : BufTy).Contents (Elt Ideal))
variable (W : (⟨S1024x1024, .f32⟩ : BufTy).Contents (Elt Ideal)) (B : (⟨S1024, .f32⟩ : BufTy).Contents (Elt Ideal))

/-- The batched product of queries and keys, entry `(b, q, k)`. -/
theorem v0_at (b : Fin 8) (q k : Fin 2048) :
    val_main_v0 (F := Ideal) U M (ix3 b q k) = ∑ d : Fin 1024, U (ix3 b q d) * M (ix3 b k d) := by
  rw [val_main_v0_apply]
  refine Finset.sum_congr rfl fun d _ => ?_
  congr 1 <;> exact congrArg _ (funext fun a => by match a with | ⟨0, _⟩ => rfl | ⟨1, _⟩ => rfl | ⟨2, _⟩ => rfl)

/-- The scaled scores. -/
theorem v3_at (b : Fin 8) (q k : Fin 2048) :
    val_main_v3 (F := Ideal) U M (ix3 b q k) = score sc (slab U b) (slab M b) q k := by
  rw [val_main_v3_apply, val_main_v2_apply, val_main_v1_apply, val_main_cst_apply, v0_at]
  exact Consts.div_sqrt_1024 _

theorem hred : S8x2048x2048.Reduces [1] S8x2048 := by decide

/-- Over `(b, k)`, the index with query coordinate `q` put back on the reduced axis is `(b, q, k)`. -/
theorem lift_query (b : Fin 8) (k : Fin 2048) (q : Fin (S8x2048x2048.size 1)) :
    hred.lift (ix2 b k) q = ix3 b (⟨q.val, q.isLt⟩ : Fin 2048) k := by
  funext c; apply Fin.ext
  fin_cases c <;> rfl

/-- The maximum over the query axis, folded from `−∞`. -/
theorem v4_at (b : Fin 8) (k : Fin 2048) :
    val_main_v4 (F := Ideal) U M (ix2 b k) = top lo sc (slab U b) (slab M b) k := by
  unfold val_main_v4
  rw [Host.reduce_eq_fold_single FloatOps.maximumf _ _ reducesTo_S8x2048x2048_S8x2048_d1 hred h_S_]
  have hf : (val_main_v3 (F := Ideal) U M ∘ hred.lift (ix2 b k))
      = fun q : Fin 2048 => score sc (slab U b) (slab M b) q k := funext fun q => by
    show val_main_v3 (F := Ideal) U M (hred.lift (ix2 b k) q) = _
    rw [lift_query, v3_at]
    rfl
  rw [hf]
  rfl

/-- A maximum against the fold's own start value is the fold. -/
theorem max_fold_self {ι : Type} (s : Finset ι) (a : EReal) (f : ι → EReal) : max a (s.fold max a f) = s.fold max a f := by
  apply max_eq_right
  rw [Finset.le_fold_max]
  exact Or.inl le_rfl

/-- The broadcast maximum: `top` of the entry's batch and key. -/
theorem v8_at (b : Fin 8) (q k : Fin 2048) :
    val_main_v8 (F := Ideal) U M (ix3 b q k) = top lo sc (slab U b) (slab M b) k := by
  rw [val_main_v8_apply, val_main_v7_apply, val_main_v6_apply, val_main_v5_apply, val_main_cst_1_apply]
  have e : idx_main_v7 (idx_main_v8 (ix3 b q k)) = ix2 b k :=
    funext fun a => by match a with | ⟨0, _⟩ => rfl | ⟨1, _⟩ => rfl
  rw [e, v4_at]
  exact max_fold_self _ _ _

/-- The exponentials. -/
theorem v10_at (b : Fin 8) (q k : Fin 2048) :
    val_main_v10 (F := Ideal) U M (ix3 b q k) = ex lo sc (slab U b) (slab M b) q k := by
  rw [val_main_v10_apply, val_main_v9_apply, v3_at, v8_at]
  rfl

/-- Their sum over the query axis. -/
theorem v11_at (b : Fin 8) (k : Fin 2048) :
    val_main_v11 (F := Ideal) U M (ix2 b k) = ∑ q : Fin 2048, ex lo sc (slab U b) (slab M b) q k := by
  rw [val_main_v11_apply, val_main_cst_2_apply]
  show Ideal.ofBits .f32 0x00000000#32 + _ = _
  rw [Ideal.ofBits_zero_f32, zero_add]
  refine Finset.sum_congr rfl fun q _ => ?_
  have e : idx_main_v11 (ix2 b k) q = ix3 b q k :=
    funext fun a => by match a with | ⟨0, _⟩ => rfl | ⟨1, _⟩ => rfl | ⟨2, _⟩ => rfl
  rw [e, v10_at]

/-- The weights. -/
theorem v14_at (b : Fin 8) (q k : Fin 2048) :
    val_main_v14 (F := Ideal) U M (ix3 b q k) = weight lo sc (slab U b) (slab M b) q k := by
  rw [val_main_v14_apply, val_main_v13_apply, val_main_v12_apply, v10_at]
  have e : idx_main_v12 (idx_main_v13 (ix3 b q k)) = ix2 b k :=
    funext fun a => by match a with | ⟨0, _⟩ => rfl | ⟨1, _⟩ => rfl
  rw [e, v11_at]
  rfl

/-- The mixed value rows. -/
theorem v15_at (b : Fin 8) (q : Fin 2048) (d : Fin 1024) :
    val_main_v15 (F := Ideal) U M C (ix3 b q d) = mix lo sc (slab U b) (slab M b) (slab C b) q d := by
  rw [val_main_v15_apply]
  refine Finset.sum_congr rfl fun k _ => ?_
  have el : lidx_main_v15 (ix3 b q d) k = ix3 b q k :=
    funext fun a => by match a with | ⟨0, _⟩ => rfl | ⟨1, _⟩ => rfl | ⟨2, _⟩ => rfl
  have er : ridx_main_v15 (ix3 b q d) k = ix3 b k d :=
    funext fun a => by match a with | ⟨0, _⟩ => rfl | ⟨1, _⟩ => rfl | ⟨2, _⟩ => rfl
  rw [el, er, v14_at]

/-- The reference's result array is the query-axis attention of its arguments. -/
theorem result_eq : val_main_v20 (F := Ideal) U M C W B = result lo sc U M C W B := by
  funext i
  obtain ⟨b, q, e, rfl⟩ : ∃ (b : Fin 8) (q : Fin 2048) (e : Fin 1024), i = ix3 b q e := ⟨i 0, i 1, i 2, eq_ix3 i⟩
  rw [val_main_v20_apply, val_main_v19_apply, val_main_v18_apply, val_main_v17_apply]
  show (∑ d : Fin 1024, _) + _ = (∑ d : Fin 1024, _) + _
  congr 1
  · refine Finset.sum_congr rfl fun d _ => ?_
    have el : lidx_main_v17 (ix3 b q e) d = ix3 b q d :=
      funext fun a => by match a with | ⟨0, _⟩ => rfl | ⟨1, _⟩ => rfl | ⟨2, _⟩ => rfl
    have er : ridx_main_v17 (ix3 b q e) d = ix2 e d :=
      funext fun a => by match a with | ⟨0, _⟩ => rfl | ⟨1, _⟩ => rfl
    rw [el, er, val_main_v16_apply, v15_at]
    rfl
  · exact congrArg B (funext fun a => by match a with | ⟨0, _⟩ => rfl)

end Cert.ReferenceIdeal.RefValue

end
-- ==== Proof.lean ====
/-
  Attention with its softmax over the QUERY axis, followed by a residual sum and a linear layer: the kernel against
  its reference, on the extended reals.

  Both programs compute, batch by batch, `out q e = (∑ d, (mix q d + u q d) · W e d) + bias e` with
  `mix q d = ∑ k, weight q k · c k d` and `weight q k = exp (score q k − max_q' score q' k) / ∑ q', exp (score q' k − …)`,
  `score q k = (∑ d, u q d · m k d) · 2⁻⁵` (Proof/ColumnSoftmax.lean). The reference spells the scale as a quotient by
  `√1024`, which is the product with `2⁻⁵` on every extended real; takes its maximum once more against `−∞`; and starts its
  sums from `0` (Proof/ReferenceValue.lean). The kernel transposes the scores (keys by queries), so that the query-axis
  softmax is a row softmax of a tile of 128 keys; it sums the weighted value rows tile by tile into a running sum carried
  across the sixteen tiles of a batch, and at the last tile projects that sum plus the queries (Proof/BlockValue.lean, one
  point's arithmetic; Proof/Pieces.lean, what each kind of point stores; Proof/KernelValue.lean, the fold over a batch's
  points and the result array). The two sides differ by the order of factors in a product, by the grouping of a sum over
  the 2048 keys into sixteen sums of 128, and by changes of float format, which are the identity here: no law used asks the
  inputs to be finite. The idealization rewrote nothing, and each program's frame is its generated run.
-/
import proofs.«180669_j62689342652872_1_alg».proof.Defs
import proofs.«180669_j62689342652872_1_alg».proof.Proof.Gen.Kernel
import proofs.«180669_j62689342652872_1_alg».proof.Proof.Gen.Kernel.Frame
import proofs.«180669_j62689342652872_1_alg».proof.Proof.Gen.KernelIdeal
import proofs.«180669_j62689342652872_1_alg».proof.Proof.Gen.KernelIdeal.Frame
import proofs.«180669_j62689342652872_1_alg».proof.Proof.Gen.KernelIdeal.Value
import proofs.«180669_j62689342652872_1_alg».proof.Proof.Gen.ReferenceIdeal
import proofs.«180669_j62689342652872_1_alg».proof.Proof.Gen.ReferenceIdeal.Run
import proofs.«180669_j62689342652872_1_alg».proof.Proof.Gen.ReferenceIdeal.Read
import proofs.«180669_j62689342652872_1_alg».proof.Proof.Gen.Pre_finite_inputs
import proofs.«180669_j62689342652872_1_alg».proof.Proof.KernelValue
import proofs.«180669_j62689342652872_1_alg».proof.Proof.ReferenceValue
import Idealize.ShloMosaic.Adequacy
import Idealize.ShloMosaic.Init

noncomputable section

namespace Cert.Proof

open Idealize.ShloMosaic Idealize.SL.Sem

/-- The three programs run, fault nowhere and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From arguments that agree, the kernel's result array and the reference's are the same query-axis attention. -/
theorem algebraic : Cert.algebraic_KernelIdeal_ReferenceIdeal := by
  intro m ρ m' ρ' _ hagree
  refine ⟨fun c => Cert.KernelIdeal.WholeValue.whole m c, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
